-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128 : Shape := ⟨3, ![16, 32, 128]⟩
abbrev S2048x180x128 : Shape := ⟨3, ![2048, 180, 128]⟩
abbrev S_ : Shape := ⟨0, ![]⟩

class Facts : Prop where
  bcast_S_S16x32x128 : S_.BroadcastsInDim S16x32x128 (![] : Fin 0 → Fin S16x32x128.rank)
  reducesTo_S16x32x128_S_d0_1_2 : S16x32x128.ReducesTo [0, 1, 2] S_
  h_S_ : 0 < S_.numel
  bcast_S_S2048x180x128 : S_.BroadcastsInDim S2048x180x128 (![] : Fin 0 → Fin S2048x180x128.rank)
  reducesTo_S2048x180x128_S_d0_1_2 : S2048x180x128.ReducesTo [0, 1, 2] S_

variable [Facts]

def fn {F : FTy → Type} [FloatOps F] (main_arg0 : FVec F S16x32x128 .f32) (main_arg1 : FVec F S2048x180x128 .f32) : IVec S_ 1 :=
  let main_v0 : FVec F S16x32x128 .f32 := Host.absf main_arg0
  let main_cst : FVec F S_ .f32 := constant S_ .f32 0x7F800000#32
  let main_v1 : FVec F S16x32x128 .f32 := broadcastInDim S16x32x128 ![] bcast_S_S16x32x128 main_cst
  let main_v2 : IVec S16x32x128 1 := cmpf .olt main_v0 main_v1
  let main_c : IVec S_ 1 := constantI S_ 1 1#1
  let main_v3 : IVec S_ 1 := (fun x v => Host.reduce IntOp.andi x v reducesTo_S16x32x128_S_d0_1_2 h_S_) main_v2 main_c
  let main_v4 : FVec F S2048x180x128 .f32 := Host.absf main_arg1
  let main_cst_0 : FVec F S_ .f32 := constant S_ .f32 0x7F800000#32
  let main_v5 : FVec F S2048x180x128 .f32 := broadcastInDim S2048x180x128 ![] bcast_S_S2048x180x128 main_cst_0
  let main_v6 : IVec S2048x180x128 1 := cmpf .olt main_v4 main_v5
  let main_c_1 : IVec S_ 1 := constantI S_ 1 1#1
  let main_v7 : IVec S_ 1 := (fun x v => Host.reduce IntOp.andi x v reducesTo_S2048x180x128_S_d0_1_2 h_S_) main_v6 main_c_1
  let main_v8 : IVec S_ 1 := andi main_v3 main_v7
  main_v8
-- ==== Kernel.lean ====
abbrev S16x32x128 : Shape := ⟨3, ![16, 32, 128]⟩
abbrev S2048x180x128 : Shape := ⟨3, ![2048, 180, 128]⟩
abbrev S512x128 : Shape := ⟨2, ![512, 128]⟩
abbrev S16x2048 : Shape := ⟨2, ![16, 2048]⟩
abbrev S128x180x128 : Shape := ⟨3, ![128, 180, 128]⟩
abbrev S16x128 : Shape := ⟨2, ![16, 128]⟩
abbrev S1x512x128 : Shape := ⟨3, ![1, 512, 128]⟩
abbrev S4x512x128 : Shape := ⟨3, ![4, 512, 128]⟩
abbrev S4x128 : Shape := ⟨2, ![4, 128]⟩
abbrev S4x180x128 : Shape := ⟨3, ![4, 180, 128]⟩
abbrev S4x512x180 : Shape := ⟨3, ![4, 512, 180]⟩
abbrev S4x16x32x180 : Shape := ⟨4, ![4, 16, 32, 180]⟩
abbrev S4x16x32 : Shape := ⟨3, ![4, 16, 32]⟩
abbrev S4x16 : Shape := ⟨2, ![4, 16]⟩
abbrev S16x4 : Shape := ⟨2, ![16, 4]⟩
abbrev S16x4x1 : Shape := ⟨3, ![16, 4, 1]⟩
abbrev S1x4x128 : Shape := ⟨3, ![1, 4, 128]⟩
abbrev S16x4x128 : Shape := ⟨3, ![16, 4, 128]⟩

abbrev nBuf : Space → Nat
  | .hbm => 4
  | .vmem => 5
  | .smem => 0
  | _ => 0

abbrev bufTy : (tb : Table) → Fin (tcTables nBuf tb) → BufTy
  | .hbm, ⟨0, _⟩ => ⟨S16x32x128, .f32⟩
  | .hbm, ⟨1, _⟩ => ⟨S2048x180x128, .f32⟩
  | .hbm, ⟨2, _⟩ => ⟨S512x128, .f32⟩
  | .hbm, ⟨3, _⟩ => ⟨S16x2048, .f32⟩
  | .local _ .vmem, ⟨0, _⟩ => ⟨S512x128, .f32⟩
  | .local _ .vmem, ⟨1, _⟩ => ⟨S128x180x128, .f32⟩
  | .local _ .vmem, ⟨2, _⟩ => ⟨S128x180x128, .f32⟩
  | .local _ .vmem, ⟨3, _⟩ => ⟨S16x128, .f32⟩
  | .local _ .vmem, ⟨4, _⟩ => ⟨S16x128, .f32⟩
  | _, _ => ⟨S16x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x32x128_S512x128 : S16x32x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  shapeCasts_S512x128_S1x512x128 : S512x128.ShapeCasts S1x512x128
  shapeCasts_S1x512x128_S1x512x128 : S1x512x128.ShapeCasts S1x512x128
  broadcasts_S1x512x128_S4x512x128 : S1x512x128.Broadcasts S4x512x128
  iota_S4x128_d1_w32 : S4x128.Iotas .tc 32 [1]
  iota_S4x128_d0_w32 : S4x128.Iotas .tc 32 [0]
  inb_S128x180x128_S4x180x128_0_0_0 : ∀ a, (![0, 0, 0] : Fin 3 → Nat) a + S4x180x128.size a ≤ S128x180x128.size a
  h_S4x180x128 : 0 < S4x180x128.numel
  shapeCasts_S4x512x180_S4x16x32x180 : S4x512x180.ShapeCasts S4x16x32x180
  reduces_S4x16x32x180_S4x16x32 : S4x16x32x180.Reduces [3] S4x16x32
  reduces_S4x16x32_S4x16 : S4x16x32.Reduces [2] S4x16
  transposes_S4x16_p1_0_S16x4 : S4x16.Transposes [1, 0] S16x4
  natLt_1_32 : 1 < 32
  shapeCasts_S16x4_S16x4x1 : S16x4.ShapeCasts S16x4x1
  shapeCasts_S4x128_S1x4x128 : S4x128.ShapeCasts S1x4x128
  broadcasts_S16x4x1_S16x4x128 : S16x4x1.Broadcasts S16x4x128
  broadcasts_S1x4x128_S16x4x128 : S1x4x128.Broadcasts S16x4x128
  reduces_S16x4x128_S16x128 : S16x4x128.Reduces [1] S16x128
  inb_S128x180x128_S4x180x128_4_0_0 : ∀ a, (![4, 0, 0] : Fin 3 → Nat) a + S4x180x128.size a ≤ S128x180x128.size a
  inb_S128x180x128_S4x180x128_8_0_0 : ∀ a, (![8, 0, 0] : Fin 3 → Nat) a + S4x180x128.size a ≤ S128x180x128.size a
  inb_S128x180x128_S4x180x128_12_0_0 : ∀ a, (![12, 0, 0] : Fin 3 → Nat) a + S4x180x128.size a ≤ S128x180x128.size a
  inb_S128x180x128_S4x180x128_16_0_0 : ∀ a, (![16, 0, 0] : Fin 3 → Nat) a + S4x180x128.size a ≤ S128x180x128.size a
  inb_S128x180x128_S4x180x128_20_0_0 : ∀ a, (![20, 0, 0] : Fin 3 → Nat) a + S4x180x128.size a ≤ S128x180x128.size a
  inb_S128x180x128_S4x180x128_24_0_0 : ∀ a, (![24, 0, 0] : Fin 3 → Nat) a + S4x180x128.size a ≤ S128x180x128.size a
  inb_S128x180x128_S4x180x128_28_0_0 : ∀ a, (![28, 0, 0] : Fin 3 → Nat) a + S4x180x128.size a ≤ S128x180x128.size a
  inb_S128x180x128_S4x180x128_32_0_0 : ∀ a, (![32, 0, 0] : Fin 3 → Nat) a + S4x180x128.size a ≤ S128x180x128.size a
  inb_S128x180x128_S4x180x128_36_0_0 : ∀ a, (![36, 0, 0] : Fin 3 → Nat) a + S4x180x128.size a ≤ S128x180x128.size a
  inb_S128x180x128_S4x180x128_40_0_0 : ∀ a, (![40, 0, 0] : Fin 3 → Nat) a + S4x180x128.size a ≤ S128x180x128.size a
  inb_S128x180x128_S4x180x128_44_0_0 : ∀ a, (![44, 0, 0] : Fin 3 → Nat) a + S4x180x128.size a ≤ S128x180x128.size a
  inb_S128x180x128_S4x180x128_48_0_0 : ∀ a, (![48, 0, 0] : Fin 3 → Nat) a + S4x180x128.size a ≤ S128x180x128.size a
  inb_S128x180x128_S4x180x128_52_0_0 : ∀ a, (![52, 0, 0] : Fin 3 → Nat) a + S4x180x128.size a ≤ S128x180x128.size a
  inb_S128x180x128_S4x180x128_56_0_0 : ∀ a, (![56, 0, 0] : Fin 3 → Nat) a + S4x180x128.size a ≤ S128x180x128.size a
  inb_S128x180x128_S4x180x128_60_0_0 : ∀ a, (![60, 0, 0] : Fin 3 → Nat) a + S4x180x128.size a ≤ S128x180x128.size a
  inb_S128x180x128_S4x180x128_64_0_0 : ∀ a, (![64, 0, 0] : Fin 3 → Nat) a + S4x180x128.size a ≤ S128x180x128.size a
  inb_S128x180x128_S4x180x128_68_0_0 : ∀ a, (![68, 0, 0] : Fin 3 → Nat) a + S4x180x128.size a ≤ S128x180x128.size a
  inb_S128x180x128_S4x180x128_72_0_0 : ∀ a, (![72, 0, 0] : Fin 3 → Nat) a + S4x180x128.size a ≤ S128x180x128.size a
  inb_S128x180x128_S4x180x128_76_0_0 : ∀ a, (![76, 0, 0] : Fin 3 → Nat) a + S4x180x128.size a ≤ S128x180x128.size a
  inb_S128x180x128_S4x180x128_80_0_0 : ∀ a, (![80, 0, 0] : Fin 3 → Nat) a + S4x180x128.size a ≤ S128x180x128.size a
  inb_S128x180x128_S4x180x128_84_0_0 : ∀ a, (![84, 0, 0] : Fin 3 → Nat) a + S4x180x128.size a ≤ S128x180x128.size a
  inb_S128x180x128_S4x180x128_88_0_0 : ∀ a, (![88, 0, 0] : Fin 3 → Nat) a + S4x180x128.size a ≤ S128x180x128.size a
  inb_S128x180x128_S4x180x128_92_0_0 : ∀ a, (![92, 0, 0] : Fin 3 → Nat) a + S4x180x128.size a ≤ S128x180x128.size a
  inb_S128x180x128_S4x180x128_96_0_0 : ∀ a, (![96, 0, 0] : Fin 3 → Nat) a + S4x180x128.size a ≤ S128x180x128.size a
  inb_S128x180x128_S4x180x128_100_0_0 : ∀ a, (![100, 0, 0] : Fin 3 → Nat) a + S4x180x128.size a ≤ S128x180x128.size a
  inb_S128x180x128_S4x180x128_104_0_0 : ∀ a, (![104, 0, 0] : Fin 3 → Nat) a + S4x180x128.size a ≤ S128x180x128.size a
  inb_S128x180x128_S4x180x128_108_0_0 : ∀ a, (![108, 0, 0] : Fin 3 → Nat) a + S4x180x128.size a ≤ S128x180x128.size a
  inb_S128x180x128_S4x180x128_112_0_0 : ∀ a, (![112, 0, 0] : Fin 3 → Nat) a + S4x180x128.size a ≤ S128x180x128.size a
  inb_S128x180x128_S4x180x128_116_0_0 : ∀ a, (![116, 0, 0] : Fin 3 → Nat) a + S4x180x128.size a ≤ S128x180x128.size a
  inb_S128x180x128_S4x180x128_120_0_0 : ∀ a, (![120, 0, 0] : Fin 3 → Nat) a + S4x180x128.size a ≤ S128x180x128.size a
  inb_S128x180x128_S4x180x128_124_0_0 : ∀ a, (![124, 0, 0] : Fin 3 → Nat) a + S4x180x128.size a ≤ S128x180x128.size a
  inb_S16x128_S16x128_0_0 : ∀ a, (![0, 0] : Fin 2 → Nat) a + S16x128.size a ≤ S16x128.size a
  h_S16x128 : 0 < S16x128.numel
  dot_S4x512x128_S4x180x128_S4x512x180_2_2_1_1_0_0_wf : DotDims.WF S4x512x128 S4x180x128 S4x512x180 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x180x128.size a ≤ S2048x180x128.size a
  hwx0_1 : ∀ i : grid0.Coords, EltTy.bits .f32 = 32 ∨ (Rect.block (s := S2048x180x128) S128x180x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x2048.size a
  hwx0_2 : ∀ i : grid0.Coords, EltTy.bits .f32 = 32 ∨ (Rect.block (s := S16x2048) S16x128.size (cc0_transform_2 i) (hinb0_2 i)).WholeWords (EltTy.packing .f32)

variable [Facts₀]

def dot_S4x512x128_S4x180x128_S4x512x180_2_2_1_1_0_0 : DotDims S4x512x128 S4x180x128 S4x512x180 where
  lhsContracting := [2]
  rhsContracting := [2]
  lhsNonContracting := [1]
  rhsNonContracting := [1]
  lhsBatch := [0]
  rhsBatch := [0]
  wf := dot_S4x512x128_S4x180x128_S4x512x180_2_2_1_1_0_0_wf

abbrev win0_0 : Pipeline.Window sig grid0 :=
  Pipeline.Window.ofSpec (Memref.whole main_v0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x180x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x128 : Shape := ⟨3, ![16, 32, 128]⟩
abbrev S2048x180x128 : Shape := ⟨3, ![2048, 180, 128]⟩
abbrev S2048x180x16x32 : Shape := ⟨4, ![2048, 180, 16, 32]⟩
abbrev S16x2048x32x180 : Shape := ⟨4, ![16, 2048, 32, 180]⟩
abbrev S_ : Shape := ⟨0, ![]⟩
abbrev S16x2048x32 : Shape := ⟨3, ![16, 2048, 32]⟩
abbrev S16x2048 : Shape := ⟨2, ![16, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x32x128, .f32⟩
  | .hbm, ⟨1, _⟩ => ⟨S2048x180x128, .f32⟩
  | .hbm, ⟨2, _⟩ => ⟨S2048x180x16x32, .f32⟩
  | .hbm, ⟨3, _⟩ => ⟨S16x2048x32x180, .f32⟩
  | .hbm, ⟨4, _⟩ => ⟨S_, .f32⟩
  | .hbm, ⟨5, _⟩ => ⟨S16x2048x32, .f32⟩
  | .hbm, ⟨6, _⟩ => ⟨S_, .f32⟩
  | .hbm, ⟨7, _⟩ => ⟨S16x2048, .f32⟩
  | _, _ => ⟨S16x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S2048x180x16x32_S16x2048x32x180_2_0_3_1 : S2048x180x16x32.Transposes [2, 0, 3, 1] S16x2048x32x180
  reducesTo_S16x2048x32x180_S16x2048x32_d3 : S16x2048x32x180.ReducesTo [3] S16x2048x32
  h_S_ : 0 < S_.numel
  reducesTo_S16x2048x32_S16x2048_d2 : S16x2048x32.ReducesTo [2] S16x2048
  dot_S2048x180x128_S16x32x128_S2048x180x16x32_2_2_01_01_n_n_wf : DotDims.WF S2048x180x128 S16x32x128 S2048x180x16x32 [2] [2] [0, 1] [0, 1] [] []

variable [Facts₀]

def dot_S2048x180x128_S16x32x128_S2048x180x16x32_2_2_01_01_n_n : DotDims S2048x180x128 S16x32x128 S2048x180x16x32 where
  lhsContracting := [2]
  rhsContracting := [2]
  lhsNonContracting := [0, 1]
  rhsNonContracting := [0, 1]
  lhsBatch := []
  rhsBatch := []
  wf := dot_S2048x180x128_S16x32x128_S2048x180x16x32_2_2_01_01_n_n_wf

class Facts : Prop extends Facts₀ where

variable [Facts]
-- ==== Proof.Group.lean ====
/-
  One group of four documents of the MaxSim kernel, as a function of the values it reads.

  The kernel scores sixteen queries against a tile of 128 documents in thirty-two groups of four. For one group it
  forms, for document j of the group and query q,
      sc(j, q) = Σ_{m < 32} max_{s < 180} Σ_{d < 128} query[32·q + m, d] · doc_j[s, d],
  and adds to the tile's [16, 128] accumulator, at (q, l), the sum over j of sc(j, q) · hot(j, l), where
  hot(j, l) is 1 when lane l is the group's document j (l = base + j) and 0 otherwise. This module names the
  three stages — the scores, the indicator, the spreading product-and-sum — as definitions at any instance, spelt
  as the program spells them, and reads the scores at an index at the ideal values, where a change of float
  format is the identity and the matrix product into a zero accumulator is the plain sum of products.
-/
import proofs.«144262_j63239098466666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

namespace Cert.KernelIdeal.MaxSim

open Cert.KernelIdeal Cert.KernelIdeal.Gen Idealize.ShloMosaic Idealize.ShloMosaic.ValueIdx

variable {F : FTy → Type} [FloatOps F]

/-! ## The three stages of a group, at any instance -/

/-- The scores of a group: entry (j, q) is the sum over the query's 32 tokens of the best match of each token
    among document j's 180 tokens. -/
def scores (v5 : FVec F S4x512x128 .bf16) (v9 : Vec F S4x180x128 .f32) : FVec F S4x16 .f32 :=
  have v10 : FVec F S4x180x128 .bf16 := truncf .bf16 v9 bitsLt_bf16_f32
  have cst_4 : FVec F S4x512x180 .f32 := constant S4x512x180 .f32 0x00000000#32
  have v11 : FVec F S4x512x180 .f32 := matmul dot_S4x512x128_S4x180x128_S4x512x180_2_2_1_1_0_0 none v5 v10 cst_4
  have v12 : FVec F S4x16x32x180 .f32 := shapeCast S4x16x32x180 v11 shapeCasts_S4x512x180_S4x16x32x180
  have v13 : FVec F S4x16x32 .f32 := multiReduction .maximumf [3] S4x16x32 v12 0xFF800000#32 reduces_S4x16x32x180_S4x16x32 (.inl rfl) rfl
  have v14 : FVec F S4x16 .f32 := multiReduction .add [2] S4x16 v13 0x00000000#32 reduces_S4x16x32_S4x16 (.inl rfl) rfl
  v14

/-- The indicator of a group whose first document sits at lane base: entry (j, l) is 1 where l = base + j. -/
def hot (base : BitVec 32) (v6 v7 : IVec S4x128 32) : FVec F S4x128 .f32 :=
  have v16 : IVec S4x128 32 := broadcast S4x128 base
  have v17 : IVec S4x128 32 := addi v16 v7
  have v18 : IVec S4x128 1 := cmpi .eq v6 v17
  have v19 : IVec S4x128 32 := extui 32 v18 natLt_1_32
  have v20 : FVec F S4x128 .f32 := sitofp .f32 v19
  v20

/-- Scores spread over the lanes: entry (q, l) is the sum over the group's four documents of score times indicator. -/
def spread (v14 : FVec F S4x16 .f32) (v20 : FVec F S4x128 .f32) : FVec F S16x128 .f32 :=
  have v15 : FVec F S16x4 .f32 := transpose S16x4 [1, 0] v14 transposes_S4x16_p1_0_S16x4
  have v21 : FVec F S16x4x1 .f32 := shapeCast S16x4x1 v15 shapeCasts_S16x4_S16x4x1
  have v22 : FVec F S1x4x128 .f32 := shapeCast S1x4x128 v20 shapeCasts_S4x128_S1x4x128
  have v23 : FVec F S16x4x128 .f32 := broadcastTo S16x4x128 v21 broadcasts_S16x4x1_S16x4x128
  have v24 : FVec F S16x4x128 .f32 := broadcastTo S16x4x128 v22 broadcasts_S1x4x128_S16x4x128
  have v25 : FVec F S16x4x128 .f32 := mulf v23 v24
  have v26 : FVec F S16x128 .f32 := multiReduction .add [1] S16x128 v25 0x00000000#32 reduces_S16x4x128_S16x128 (.inl rfl) rfl
  v26

/-- What one group adds to the accumulator. -/
def grp (base : BitVec 32) (v5 : FVec F S4x512x128 .bf16) (v6 v7 : IVec S4x128 32) (v9 : Vec F S4x180x128 .f32) :
    FVec F S16x128 .f32 :=
  spread (scores v5 v9) (hot base v6 v7)

/-! ## The scores at an index, at the ideal values -/

/-- The group's product contracts the feature axis, carries the document axis as a batch axis, and lays the result
    out as (document, query row, document token): the operand indices at a result index, coordinate by coordinate. -/
theorem lhs_0 (i : S4x512x180.Idx) (c : dot_S4x512x128_S4x180x128_S4x512x180_2_2_1_1_0_0.contr.Idx) :
    (dot_S4x512x128_S4x180x128_S4x512x180_2_2_1_1_0_0.lhsIdx i c 0).val = (i 0).val := by
  unfold DotDims.lhsIdx
  rw [dif_pos (show (0 : Fin S4x512x128.rank) ∈ dot_S4x512x128_S4x180x128_S4x512x180_2_2_1_1_0_0.lhsBatch by decide)]
  rfl
theorem lhs_1 (i : S4x512x180.Idx) (c : dot_S4x512x128_S4x180x128_S4x512x180_2_2_1_1_0_0.contr.Idx) :
    (dot_S4x512x128_S4x180x128_S4x512x180_2_2_1_1_0_0.lhsIdx i c 1).val = (i 1).val := by
  unfold DotDims.lhsIdx
  rw [dif_neg (show ¬(1 : Fin S4x512x128.rank) ∈ dot_S4x512x128_S4x180x128_S4x512x180_2_2_1_1_0_0.lhsBatch by decide),
    dif_pos (show (1 : Fin S4x512x128.rank) ∈ dot_S4x512x128_S4x180x128_S4x512x180_2_2_1_1_0_0.lhsNonContracting by decide)]
  rfl
theorem lhs_2 (i : S4x512x180.Idx) (c : dot_S4x512x128_S4x180x128_S4x512x180_2_2_1_1_0_0.contr.Idx) :
    (dot_S4x512x128_S4x180x128_S4x512x180_2_2_1_1_0_0.lhsIdx i c 2).val = (c ⟨0, by decide⟩).val :=
  dot_S4x512x128_S4x180x128_S4x512x180_2_2_1_1_0_0.lhsIdx_val_of_single rfl i c
theorem rhs_0 (i : S4x512x180.Idx) (c : dot_S4x512x128_S4x180x128_S4x512x180_2_2_1_1_0_0.contr.Idx) :
    (dot_S4x512x128_S4x180x128_S4x512x180_2_2_1_1_0_0.rhsIdx i c 0).val = (i 0).val := by
  unfold DotDims.rhsIdx
  rw [dif_pos (show (0 : Fin S4x180x128.rank) ∈ dot_S4x512x128_S4x180x128_S4x512x180_2_2_1_1_0_0.rhsBatch by decide)]
  rfl
theorem rhs_1 (i : S4x512x180.Idx) (c : dot_S4x512x128_S4x180x128_S4x512x180_2_2_1_1_0_0.contr.Idx) :
    (dot_S4x512x128_S4x180x128_S4x512x180_2_2_1_1_0_0.rhsIdx i c 1).val = (i 2).val := by
  unfold DotDims.rhsIdx
  rw [dif_neg (show ¬(1 : Fin S4x180x128.rank) ∈ dot_S4x512x128_S4x180x128_S4x512x180_2_2_1_1_0_0.rhsBatch by decide),
    dif_pos (show (1 : Fin S4x180x128.rank) ∈ dot_S4x512x128_S4x180x128_S4x512x180_2_2_1_1_0_0.rhsNonContracting by decide)]
  rfl
theorem rhs_2 (i : S4x512x180.Idx) (c : dot_S4x512x128_S4x180x128_S4x512x180_2_2_1_1_0_0.contr.Idx) :
    (dot_S4x512x128_S4x180x128_S4x512x180_2_2_1_1_0_0.rhsIdx i c 2).val = (c ⟨0, by decide⟩).val :=
  dot_S4x512x128_S4x180x128_S4x512x180_2_2_1_1_0_0.rhsIdx_val_of_single rfl i c

/-- The batched product of the group: for document j, query row r and document token s, the sum over the 128
    features of the products (the batch axis reads the result's first coordinate on both sides). -/
theorem mm_apply (a : FVec Ideal S4x512x128 .bf16) (b : FVec Ideal S4x180x128 .bf16) (j : Fin 4) (r : Fin 512) (s : Fin 180) :
    matmul dot_S4x512x128_S4x180x128_S4x512x180_2_2_1_1_0_0 none a b (constant (F := Ideal) S4x512x180 .f32 0x00000000#32) (ix3 j r s)
      = ∑ k : Fin 128, a (ix3 j r k) * b (ix3 j s k) := by
  simp only [matmul]
  rw [Ideal.matmul_constant_zero_apply, ← Equiv.sum_comp (contrEquiv1 dot_S4x512x128_S4x180x128_S4x512x180_2_2_1_1_0_0 128 rfl rfl).symm]
  refine Finset.sum_congr rfl fun k _ => ?_
  have hk := contrEquiv1_symm_val dot_S4x512x128_S4x180x128_S4x512x180_2_2_1_1_0_0 128 rfl rfl k
  have el : dot_S4x512x128_S4x180x128_S4x512x180_2_2_1_1_0_0.lhsIdx (ix3 j r s) ((contrEquiv1 dot_S4x512x128_S4x180x128_S4x512x180_2_2_1_1_0_0 128 rfl rfl).symm k) = ix3 j r k :=
    funext fun c => Fin.ext (by
      match c with
      | ⟨0, _⟩ => exact lhs_0 _ _
      | ⟨1, _⟩ => exact lhs_1 _ _
      | ⟨2, _⟩ => exact (lhs_2 _ _).trans hk)
  have er : dot_S4x512x128_S4x180x128_S4x512x180_2_2_1_1_0_0.rhsIdx (ix3 j r s) ((contrEquiv1 dot_S4x512x128_S4x180x128_S4x512x180_2_2_1_1_0_0 128 rfl rfl).symm k) = ix3 j s k :=
    funext fun c => Fin.ext (by
      match c with
      | ⟨0, _⟩ => exact rhs_0 _ _
      | ⟨1, _⟩ => exact rhs_1 _ _
      | ⟨2, _⟩ => exact (rhs_2 _ _).trans hk)
  rw [el, er]

/-! ## The reductions and the casts of a group at literal coordinates, over any source -/

/-- The sum over the query's 32 tokens. -/
theorem sum_m (src : FVec Ideal S4x16x32 .f32) (j : Fin 4) (q : Fin 16) :
    multiReduction .add [2] S4x16 src 0x00000000#32 reduces_S4x16x32_S4x16 (.inl rfl) rfl (ix2 j q)
      = ∑ m : Fin 32, src (ix3 j q m) := by
  refine (Ideal.multiReduction_add_single src 0x00000000#32 reduces_S4x16x32_S4x16 (.inl rfl) rfl (ix2 j q)).trans ?_
  exact Finset.sum_congr rfl (fun m _ => congrArg src (funext fun c => Fin.ext (by
    match c with
    | ⟨0, _⟩ => rfl
    | ⟨1, _⟩ => rfl
    | ⟨2, _⟩ => rfl)))

/-- The maximum over the document's 180 tokens, folded from the pattern of minus infinity. -/
theorem max_s (src : FVec Ideal S4x16x32x180 .f32) (j : Fin 4) (q : Fin 16) (m : Fin 32) :
    multiReduction .maximumf [3] S4x16x32 src 0xFF800000#32 reduces_S4x16x32x180_S4x16x32 (.inl rfl) rfl (ix3 j q m)
      = (Finset.univ : Finset (Fin 180)).fold max (Ideal.ofBits .f32 0xFF800000#32) (fun s => src (ix4 j q m s)) := by
  refine (Ideal.multiReduction_maximumf_single src 0xFF800000#32 reduces_S4x16x32x180_S4x16x32 (.inl rfl) rfl (ix3 j q m)).trans ?_
  refine congrArg (fun f => Finset.fold max (Ideal.ofBits .f32 0xFF800000#32) f (Finset.univ : Finset (Fin 180))) (funext fun s => ?_)
  exact congrArg src (funext fun c => Fin.ext (by
    match c with
    | ⟨0, _⟩ => rfl
    | ⟨1, _⟩ => rfl
    | ⟨2, _⟩ => rfl
    | ⟨3, _⟩ => rfl))

/-- The sum over the group's four documents. -/
theorem sum_j (src : FVec Ideal S16x4x128 .f32) (q : Fin 16) (l : Fin 128) :
    multiReduction .add [1] S16x128 src 0x00000000#32 reduces_S16x4x128_S16x128 (.inl rfl) rfl (ix2 q l)
      = ∑ j : Fin 4, src (ix3 q j l) := by
  refine (Ideal.multiReduction_add_single src 0x00000000#32 reduces_S16x4x128_S16x128 (.inl rfl) rfl (ix2 q l)).trans ?_
  exact Finset.sum_congr rfl (fun j _ => congrArg src (funext fun c => Fin.ext (by
    match c with
    | ⟨0, _⟩ => rfl
    | ⟨1, _⟩ => rfl
    | ⟨2, _⟩ => rfl)))

/-- Query row 32·q + m of the 512 rows is token m of query q: the cast [4, 512, 180] to [4, 16, 32, 180]. -/
theorem rows_apply (x : FVec Ideal S4x512x180 .f32) (j : Fin 4) (q : Fin 16) (m : Fin 32) (s : Fin 180) :
    shapeCast S4x16x32x180 x shapeCasts_S4x512x180_S4x16x32x180 (ix4 j q m s)
      = x (ix3 j ⟨32 * q.val + m.val, by omega⟩ s) := by
  refine shapeCast_apply x shapeCasts_S4x512x180_S4x16x32x180 (ix4 j q m s) (ix3 j ⟨32 * q.val + m.val, by omega⟩ s) ?_
  rw [Shape.rowMajor_val_three, Shape.rowMajor_val_four]
  show (j.val * 512 + (32 * q.val + m.val)) * 180 + s.val = ((j.val * 16 + q.val) * 32 + m.val) * 180 + s.val
  omega

/-! ## The three stages at an index, at the ideal values -/

/-- The scores at (j, q): the sum over the query's tokens m of the maximum, from the pattern of minus infinity, over
    the document's tokens s of the feature sum of query row 32·q + m against document j's row s. -/
theorem scores_apply (v5 : FVec Ideal S4x512x128 .bf16) (v9 : FVec Ideal S4x180x128 .f32) (j : Fin 4) (q : Fin 16) :
    scores (F := Ideal) v5 v9 (ix2 j q)
      = ∑ m : Fin 32, (Finset.univ : Finset (Fin 180)).fold max (Ideal.ofBits .f32 0xFF800000#32)
          (fun s => ∑ k : Fin 128, v5 (ix3 j ⟨32 * q.val + m.val, by omega⟩ k) * v9 (ix3 j s k)) := by
  unfold scores
  refine (sum_m _ j q).trans ?_
  refine Finset.sum_congr rfl fun m _ => ?_
  refine (max_s _ j q m).trans ?_
  refine congrArg (fun f => Finset.fold max (Ideal.ofBits .f32 0xFF800000#32) f (Finset.univ : Finset (Fin 180))) (funext fun s => ?_)
  refine (rows_apply _ j q m s).trans ?_
  exact mm_apply v5 (truncf .bf16 v9 bitsLt_bf16_f32) j _ s

/-- The spreading at (q, l): the sum over the group's documents of the score (j, q) times the indicator (j, l). The
    scores reach the product transposed and repeated along the lanes, the indicator repeated along the queries. -/
theorem spread_apply (sc : FVec Ideal S4x16 .f32) (h : FVec Ideal S4x128 .f32) (q : Fin 16) (l : Fin 128) :
    spread (F := Ideal) sc h (ix2 q l) = ∑ j : Fin 4, sc (ix2 j q) * h (ix2 j l) := by
  unfold spread
  refine (sum_j _ q l).trans ?_
  refine Finset.sum_congr rfl fun j _ => ?_
  refine (mulf_apply _ _ _).trans ?_
  refine congrArg₂ (· * ·) ?_ ?_
  · refine (broadcastTo_apply _ broadcasts_S16x4x1_S16x4x128 (ix3 q j l) (ix3 q j (0 : Fin 1)) ?_).trans ?_
    · intro a
      match a with
      | ⟨0, _⟩ => rfl
      | ⟨1, _⟩ => rfl
      | ⟨2, _⟩ => rfl
    · refine (shapeCast_apply _ shapeCasts_S16x4_S16x4x1 (ix3 q j (0 : Fin 1)) (ix2 q j) ?_).trans ?_
      · rw [Shape.rowMajor_val_two, Shape.rowMajor_val_three]
        show q.val * 4 + j.val = (q.val * 4 + j.val) * 1 + 0
        omega
      · exact transpose_ix2_apply sc transposes_S4x16_p1_0_S16x4 q j
  · refine (broadcastTo_apply _ broadcasts_S1x4x128_S16x4x128 (ix3 q j l) (ix3 (0 : Fin 1) j l) ?_).trans ?_
    · intro a
      match a with
      | ⟨0, _⟩ => rfl
      | ⟨1, _⟩ => rfl
      | ⟨2, _⟩ => rfl
    · exact shapeCast_ab_1ab_apply h shapeCasts_S4x128_S1x4x128 0 j l

/-- The indicator at (j, l), when the lane word and the row word are the lane and the row as 32-bit words and the
    group's lanes base + j stay below 2³²: 1 where l = base + j, 0 elsewhere. A condition widened to a word and
    converted signed is its bit as a number. -/
theorem hot_apply (base : ℕ) (v6 v7 : IVec S4x128 32) (j : Fin 4) (l : Fin 128)
    (h6 : v6 (ix2 j l) = BitVec.ofNat 32 l.val) (h7 : v7 (ix2 j l) = BitVec.ofNat 32 j.val) (hb : base + 4 ≤ 2 ^ 32) :
    hot (F := Ideal) (BitVec.ofNat 32 base) v6 v7 (ix2 j l) = if l.val = base + j.val then 1 else 0 := by
  unfold hot
  show ((((IntOp.cmpi .eq (v6 (ix2 j l)) (IntOp.addi (BitVec.ofNat 32 base) (v7 (ix2 j l)))).setWidth 32).toInt : ℝ) : EReal) = _
  rw [h6, h7, toInt_setWidth_bit]
  have hj : j.val < 4 := j.isLt
  have hl : l.val < 128 := l.isLt
  by_cases e : l.val = base + j.val
  · rw [if_pos e]
    have : IntOp.cmpi .eq (BitVec.ofNat 32 l.val) (IntOp.addi (BitVec.ofNat 32 base) (BitVec.ofNat 32 j.val)) = 1#1 := by
      rw [IntOp.cmpi_eq, e]
      show BitVec.ofNat 32 (base + j.val) = BitVec.ofNat 32 base + BitVec.ofNat 32 j.val
      exact BitVec.ofNat_add _ _
    rw [this]
    norm_num
  · rw [if_neg e]
    have : IntOp.cmpi .eq (BitVec.ofNat 32 l.val) (IntOp.addi (BitVec.ofNat 32 base) (BitVec.ofNat 32 j.val)) = 0#1 := by
      refine eq_zero_of_ne_one fun h1 => e ?_
      rw [IntOp.cmpi_eq] at h1
      have h2 := congrArg BitVec.toNat h1
      rw [show IntOp.addi (BitVec.ofNat 32 base) (BitVec.ofNat 32 j.val) = BitVec.ofNat 32 base + BitVec.ofNat 32 j.val from rfl,
        BitVec.toNat_add, BitVec.toNat_ofNat, BitVec.toNat_ofNat, BitVec.toNat_ofNat] at h2
      omega
    rw [this]
    norm_num

/-- One group at (q, l): the sum over its four documents of score times indicator. -/
theorem grp_apply (base : BitVec 32) (v5 : FVec Ideal S4x512x128 .bf16) (v6 v7 : IVec S4x128 32) (v9 : FVec Ideal S4x180x128 .f32)
    (q : Fin 16) (l : Fin 128) :
    grp (F := Ideal) base v5 v6 v7 v9 (ix2 q l)
      = ∑ j : Fin 4, scores (F := Ideal) v5 v9 (ix2 j q) * hot (F := Ideal) base v6 v7 (ix2 j l) :=
  spread_apply _ _ q l

end Cert.KernelIdeal.MaxSim

end
-- ==== Proof.Tile.lean ====
/-
  One tile of 128 documents: what the kernel body leaves in its [16, 128] output block, as a function of the two
  input blocks.

  The body is thirty-two copies of one group computation (Group.lean), group g reading documents 4·g … 4·g + 3 of
  the tile and adding its spread scores to a running [16, 128] sum that starts at zero. So the block is zero plus
  the sum over the groups, and at (q, l)
      Σ_{g < 32} Σ_{j < 4} score(q, document 4·g + j) · [l = 4·g + j].
  On the extended reals a product with zero is zero and with one is the other factor, whatever that factor is,
  and a sum of zeros and one term is that term; so exactly one pair (g, j) = (l / 4, l % 4) survives and the entry is
  score(q, document l): no finiteness of the inputs is used.
-/
import proofs.«144262_j63239098466666_2_alg».proof.Proof.Group
import proofs.«144262_j63239098466666_2_alg».proof.Proof.Gen.KernelIdeal.Frame

set_option maxRecDepth 16384

noncomputable section

namespace Cert.KernelIdeal.MaxSim

open Cert.KernelIdeal Cert.KernelIdeal.Gen Idealize.ShloMosaic Idealize.ShloMosaic.ValueIdx

variable {F : FTy → Type} [FloatOps F]

/-! ## The body is thirty-two groups accumulated -/

/-- Group g's four documents lie inside the tile's 128. -/
theorem grpRect_inb (g : ℕ) : ∀ a, (![4 * (g % 32), 0, 0] : Fin 3 → ℕ) a + S4x180x128.size a ≤ S128x180x128.size a := by
  intro a
  match a with
  | ⟨0, _⟩ => show 4 * (g % 32) + 4 ≤ 128; omega
  | ⟨1, _⟩ => show 0 + 180 ≤ 180; omega
  | ⟨2, _⟩ => show 0 + 128 ≤ 128; omega

/-- The rectangle group g loads: documents 4·g … 4·g + 3, every token, every feature. -/
abbrev grpRect (g : ℕ) : Rect S128x180x128 := Rect.unit (s := S128x180x128) ![4 * (g % 32), 0, 0] S4x180x128.size (grpRect_inb g)

/-- What group g adds to the running sum. -/
def term (v5 : FVec F S4x512x128 .bf16) (v6 v7 : IVec S4x128 32) (x1 : Vec F S128x180x128 .f32) (g : ℕ) : FVec F S16x128 .f32 :=
  grp (BitVec.ofNat 32 (4 * g)) v5 v6 v7 (View.ld x1 (grpRect g))

/-- The running sum after n groups, from z. -/
def accTo (f : ℕ → FVec F S16x128 .f32) (z : FVec F S16x128 .f32) : ℕ → FVec F S16x128 .f32
  | 0 => z
  | n + 1 => addf (accTo f z n) (f n)

theorem hz0 : (![0, 0] : Fin 2 → ℕ) = fun _ => 0 := funext fun a => by fin_cases a <;> rfl

/-- The output block after the body: the running sum after all thirty-two groups, from the zero block. The printed
    body is that sum unrolled; the two sides differ only in how the groups' constants are spelt. -/
theorem out_eq (x0 : Vec F S512x128 .f32) (x1 : Vec F S128x180x128 .f32) :
    out0_2 x0 x1
      = accTo (term (k0_pay2 (View.ld x0 r0_0)) (iota .tc S4x128 32 [1] iota_S4x128_d1_w32) (iota .tc S4x128 32 [0] iota_S4x128_d0_w32) x1)
          (broadcast S16x128 (Scalar.ofBits .f32 0x00000000#32)) 32 := by
  unfold out0_2
  rw [View.canon_unit_zero hz0]
  rfl

/-! ## At the ideal values -/

/-- The running sum at an index is the start there plus the sum of the groups' contributions there. -/
theorem accTo_apply (f : ℕ → FVec Ideal S16x128 .f32) (z : FVec Ideal S16x128 .f32) (n : ℕ) (i : S16x128.Idx) :
    accTo f z n i = z i + ∑ g ∈ Finset.range n, f g i := by
  induction n with
  | zero => simp [accTo]
  | succ n ih =>
    show addf (accTo f z n) (f n) i = _
    rw [addf_apply, ih, Finset.sum_range_succ, add_assoc]

/-- The query operand of every group: the [512, 128] query block, its format changed and repeated for the four
    documents, reads the block's entry (r, k) whatever the document. -/
theorem pay2_apply (v0 : FVec Ideal S512x128 .f32) (j : Fin 4) (r : Fin 512) (k : Fin 128) :
    k0_pay2 (F := Ideal) v0 (ix3 j r k) = v0 (ix2 r k) := by
  unfold k0_pay2
  refine (broadcastTo_apply _ broadcasts_S1x512x128_S4x512x128 (ix3 j r k) (ix3 (0 : Fin 1) r k) ?_).trans ?_
  · intro a
    match a with
    | ⟨0, _⟩ => rfl
    | ⟨1, _⟩ => rfl
    | ⟨2, _⟩ => rfl
  · refine (congrFun (shapeCast_self _ shapeCasts_S1x512x128_S1x512x128) _).trans ?_
    refine (shapeCast_ab_1ab_apply _ shapeCasts_S512x128_S1x512x128 0 r k).trans ?_
    show shapeCast S512x128 v0 shapeCasts_S512x128_S512x128 (ix2 r k) = v0 (ix2 r k)
    exact congrFun (shapeCast_self v0 _) _

/-- Group g's load reads document 4·g + j of the tile at (j, s, k). -/
theorem ld_grp (x1 : Vec Ideal S128x180x128 .f32) (g : ℕ) (j : Fin 4) (s : Fin 180) (k : Fin 128) :
    View.ld x1 (grpRect g) (ix3 j s k) = x1 (ix3 ⟨4 * (g % 32) + j.val, by omega⟩ s k) := by
  refine congrArg x1 (funext fun a => Fin.ext ?_)
  match a with
  | ⟨0, _⟩ => show 4 * (g % 32) + 1 * j.val = 4 * (g % 32) + j.val; omega
  | ⟨1, _⟩ => show 0 + 1 * s.val = s.val; omega
  | ⟨2, _⟩ => show 0 + 1 * k.val = k.val; omega

/-- The score of query q against document r of a tile: over the query's 32 tokens, the sum of each token's best
    match (the maximum, from the pattern of minus infinity, of the 128-feature inner products) among the document's
    180 tokens. -/
def tileScore (x0 : FVec Ideal S512x128 .f32) (x1 : FVec Ideal S128x180x128 .f32) (q : Fin 16) (r : Fin 128) : EReal :=
  ∑ m : Fin 32, (Finset.univ : Finset (Fin 180)).fold max (Ideal.ofBits .f32 0xFF800000#32)
    (fun s => ∑ k : Fin 128, x0 (ix2 ⟨32 * q.val + m.val, by omega⟩ k) * x1 (ix3 r s k))

/-- The scores of group g are the tile's scores of its four documents. -/
theorem scores_tile (x0 : Vec Ideal S512x128 .f32) (x1 : Vec Ideal S128x180x128 .f32) (g : ℕ) (j : Fin 4) (q : Fin 16) :
    scores (F := Ideal) (k0_pay2 (View.ld x0 r0_0)) (View.ld x1 (grpRect g)) (ix2 j q)
      = tileScore x0 x1 q ⟨4 * (g % 32) + j.val, by omega⟩ := by
  refine (scores_apply _ _ j q).trans ?_
  unfold tileScore
  refine Finset.sum_congr rfl fun m _ => ?_
  refine congrArg (fun f => Finset.fold max (Ideal.ofBits .f32 0xFF800000#32) f (Finset.univ : Finset (Fin 180))) (funext fun s => ?_)
  refine Finset.sum_congr rfl fun k _ => ?_
  exact congrArg₂ (· * ·) ((pay2_apply _ j _ k).trans (congrFun (View.ld_unit_zero (Val := Elt Ideal) (S := S512x128) (e := .f32) hz0 inb_S512x128_S512x128_0_0 x0) _)) (ld_grp x1 g j s k)

/-- Group g at (q, l): its four documents' scores against the indicator of lane l. -/
theorem term_apply (x0 : Vec Ideal S512x128 .f32) (x1 : Vec Ideal S128x180x128 .f32) (g : ℕ) (hg : g < 32) (q : Fin 16) (l : Fin 128) :
    term (F := Ideal) (k0_pay2 (View.ld x0 r0_0)) (iota .tc S4x128 32 [1] iota_S4x128_d1_w32) (iota .tc S4x128 32 [0] iota_S4x128_d0_w32) x1 g (ix2 q l)
      = ∑ j : Fin 4, tileScore x0 x1 q ⟨4 * (g % 32) + j.val, by omega⟩ * (if l.val = 4 * g + j.val then (1 : EReal) else 0) := by
  unfold term
  refine (grp_apply _ _ _ _ _ q l).trans ?_
  refine Finset.sum_congr rfl fun j _ => ?_
  refine congrArg₂ (· * ·) (scores_tile x0 x1 g j q) ?_
  exact hot_apply (4 * g) _ _ j l (iota_single_apply .tc S4x128 32 1 iota_S4x128_d1_w32 (ix2 j l))
    (iota_single_apply .tc S4x128 32 0 iota_S4x128_d0_w32 (ix2 j l)) (by omega)

/-- Of the 128 products of a score with an indicator, the one whose document is lane l survives. -/
theorem onehot_collapse (A : ℕ → Fin 4 → EReal) (l : Fin 128) :
    ∑ g ∈ Finset.range 32, ∑ j : Fin 4, A g j * (if l.val = 4 * g + j.val then (1 : EReal) else 0)
      = A (l.val / 4) ⟨l.val % 4, Nat.mod_lt _ (by decide)⟩ := by
  have hl := l.isLt
  rw [Finset.sum_eq_single (l.val / 4)]
  · rw [Finset.sum_eq_single (⟨l.val % 4, Nat.mod_lt _ (by decide)⟩ : Fin 4)]
    · rw [if_pos (by show l.val = 4 * (l.val / 4) + l.val % 4; omega), mul_one]
    · intro j _ hj
      rw [if_neg, mul_zero]
      intro e
      apply hj
      apply Fin.ext
      show j.val = l.val % 4
      have := j.isLt
      omega
    · intro h
      exact absurd (Finset.mem_univ _) h
  · intro g hg hne
    refine Finset.sum_eq_zero fun j _ => ?_
    rw [if_neg, mul_zero]
    intro e
    have := j.isLt
    apply hne
    omega
  · intro h
    exact absurd (Finset.mem_range.mpr (by omega)) h

/-- THE TILE: the output block at (q, l) is the score of query q against document l of the tile. -/
theorem tile_apply (x0 : Vec Ideal S512x128 .f32) (x1 : Vec Ideal S128x180x128 .f32) (q : Fin 16) (l : Fin 128) :
    out0_2 (F := Ideal) x0 x1 (ix2 q l) = tileScore x0 x1 q l := by
  rw [out_eq, accTo_apply]
  have hl := l.isLt
  rw [Finset.sum_congr rfl (fun g hg => term_apply x0 x1 g (Finset.mem_range.mp hg) q l)]
  rw [onehot_collapse (fun g j => tileScore x0 x1 q ⟨4 * (g % 32) + j.val, by have := j.isLt; omega⟩) l]
  show Ideal.ofBits .f32 0x00000000#32 + _ = _
  rw [Ideal.ofBits_zero_f32, zero_add]
  exact congrArg (tileScore x0 x1 q) (Fin.ext (by show 4 * (l.val / 4 % 32) + l.val % 4 = l.val; omega))

end Cert.KernelIdeal.MaxSim

end
-- ==== Proof.Spec.lean ====
/-
  The MaxSim score table, as one function of the two arguments.

  For sixteen queries of 32 tokens and 2048 documents of 180 tokens, all tokens vectors of 128 features,
      score(q, d) = Σ_{m < 32} max_{s < 180} Σ_{k < 128} Q[q, m, k] · D[d, s, k],
  over the extended reals, the maximum folded from the word that denotes minus infinity (both programs start their
  maximum there, so the word is never evaluated). Each program is shown to compute this table: the reference by
  reading its four operations at an index, the kernel tile by tile.
-/
import Idealize.ShloMosaic.PureOps.Ideal
import Idealize.ShloMosaic.Lib.ValueIdx

noncomputable section

namespace Cert.MaxSim

open Idealize.ShloMosaic Idealize.ShloMosaic.ValueIdx

/-- The score of query q against document d. -/
def score (Q : (⟨3, ![16, 32, 128]⟩ : Shape).Idx → EReal) (D : (⟨3, ![2048, 180, 128]⟩ : Shape).Idx → EReal)
    (q : Fin 16) (d : Fin 2048) : EReal :=
  ∑ m : Fin 32, (Finset.univ : Finset (Fin 180)).fold max (Ideal.ofBits .f32 0xFF800000#32)
    (fun s => ∑ k : Fin 128, Q (ix3 q m k) * D (ix3 d s k))

/-- The whole [16, 2048] table. -/
def table (Q : (⟨3, ![16, 32, 128]⟩ : Shape).Idx → EReal) (D : (⟨3, ![2048, 180, 128]⟩ : Shape).Idx → EReal) :
    (⟨2, ![16, 2048]⟩ : Shape).Idx → EReal :=
  fun i => score Q D (i 0) (i 1)

theorem table_apply (Q : (⟨3, ![16, 32, 128]⟩ : Shape).Idx → EReal) (D : (⟨3, ![2048, 180, 128]⟩ : Shape).Idx → EReal)
    (q : Fin 16) (d : Fin 2048) : table Q D (ix2 q d) = score Q D q d := rfl

end Cert.MaxSim

end
-- ==== Proof.Final.lean ====
/-
  From tiles to the whole table: the kernel's result array after the run.

  The launch cuts the 2048 documents into sixteen tiles of 128. At tile t the query window holds the whole [512, 128]
  query block — the [16, 32, 128] argument with its two leading axes merged, so row 32·q + m is token m of query q —
  and the document window holds documents 128·t … 128·t + 127. By Tile.lean the body leaves, at (q, l) of its
  [16, 128] output block, the score of query q against document l of the tile, which is entry (q, 128·t + l) of the
  table. The sixteen output blocks tile the [16, 2048] result, so after the run the result is the table.
-/
import proofs.«144262_j63239098466666_2_alg».proof.Proof.Tile
import proofs.«144262_j63239098466666_2_alg».proof.Proof.Spec
import proofs.«144262_j63239098466666_2_alg».proof.Proof.Gen.KernelIdeal.Value
import Idealize.ShloMosaic.Lib.StableHlo.Run

set_option maxRecDepth 16384

noncomputable section

namespace Cert.KernelIdeal.MaxSim

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The query window's array as the region finds it: the first argument with its two leading axes merged. -/
theorem V_v0 (c : Dev nD) :
    (V m c main_v0 : S512x128.Idx → EReal)
      = shapeCast S512x128 (m ((c : Thread nD τ).loc main_arg0) : S16x32x128.Idx → EReal) shapeCasts_S16x32x128_S512x128 := by
  dsimp only [Gen.V, Gen.hostOps0]
  after_results
  rfl

/-- The printed index maps over the sixteen tiles: the query window stays at block (0, 0); the document window and
    the output window move with the tile along the document axis. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The query block at any tile: row 32·q + m is token m of query q of the first argument. -/
theorem iblk0_apply (c : Dev nD) (t : Fin cfg0.N) (q : Fin 16) (mm : Fin 32) (k : Fin 128) :
    (iblk m c 0 t : Vec Ideal S512x128 .f32) (ix2 ⟨32 * q.val + mm.val, by omega⟩ k)
      = (m ((c : Thread nD τ).loc main_arg0) : S16x32x128.Idx → EReal) (ix3 q mm k) := by
  obtain ⟨e0, e1, -⟩ := idx_facts t
  unfold iblk
  rw [View.read_apply]
  show (V m c main_v0 : S512x128.Idx → EReal) _ = _
  rw [V_v0]
  refine shapeCast_apply _ shapeCasts_S16x32x128_S512x128 _ (ix3 q mm k) ?_
  rw [Shape.rowMajor_val_three, Shape.rowMajor_val_two]
  show (q.val * 32 + mm.val) * 128 + k.val
    = (win0_0.index t (0 : Fin 2) * 512 + 1 * (32 * q.val + mm.val)) * 128 + (win0_0.index t (1 : Fin 2) * 128 + 1 * k.val)
  rw [e0, e1]
  omega

/-- The document block at tile t: its document l is document 128·t + l of the second argument. -/
theorem iblk1_apply (c : Dev nD) (t : Fin cfg0.N) (l : Fin 128) (s : Fin 180) (k : Fin 128) (d : Fin 2048)
    (hd : d.val = 128 * t.val + l.val) :
    (iblk m c 1 t : Vec Ideal S128x180x128 .f32) (ix3 l s k)
      = (m ((c : Thread nD τ).loc main_arg1) : S2048x180x128.Idx → EReal) (ix3 d s k) := by
  obtain ⟨-, -, e2, e3, e4, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 128 + 1 * l.val = d.val; rw [e2, hd]; omega
  | ⟨1, _⟩ => show win0_1.index t (1 : Fin 3) * 180 + 1 * s.val = s.val; rw [e3]; omega
  | ⟨2, _⟩ => show win0_1.index t (2 : Fin 3) * 128 + 1 * k.val = k.val; rw [e4]; omega

/-- The tile's score over these two blocks is the table's score. -/
theorem tile_score (c : Dev nD) (t : Fin cfg0.N) (q : Fin 16) (l : Fin 128) (d : Fin 2048) (hd : d.val = 128 * t.val + l.val) :
    tileScore (iblk m c 0 t : Vec Ideal S512x128 .f32) (iblk m c 1 t : Vec Ideal S128x180x128 .f32) q l
      = Cert.MaxSim.score (m ((c : Thread nD τ).loc main_arg0)) (m ((c : Thread nD τ).loc main_arg1)) q d := by
  unfold tileScore Cert.MaxSim.score
  refine Finset.sum_congr rfl fun mm _ => ?_
  refine congrArg (fun f => Finset.fold max (Ideal.ofBits .f32 0xFF800000#32) f (Finset.univ : Finset (Fin 180))) (funext fun s => ?_)
  refine Finset.sum_congr rfl fun k _ => ?_
  exact congrArg₂ (· * ·) (iblk0_apply m c t q mm k) (iblk1_apply m c t l s k d hd)

/-- WHAT TILE t WRITES BACK is block t of the table of the two arguments. -/
theorem flushed_eq (c : Dev nD) (t : Fin cfg0.N) :
    (dats m 0 c).flushed 2 t
      = ((cfg0.win 2).blk t).view.read (Elt Ideal)
          (Cert.MaxSim.table (m ((c : Thread nD τ).loc main_arg0)) (m ((c : Thread nD τ).loc main_arg1))) := by
  rw [Cert.KernelIdeal.Value.flushed2]
  obtain ⟨-, -, -, -, -, e5, e6⟩ := idx_facts t
  have hN : grid0.N = 16 := N_0
  have ht : t.val < 16 := by have h : t.val < grid0.N := t.isLt; omega
  funext y
  have hy0 : (y 0).val < 16 := (y 0).isLt
  have hy1 : (y 1).val < 128 := (y 1).isLt
  show out0_2 (iblk m c 0 t) (iblk m c 1 t) y = Cert.MaxSim.table _ _ (((cfg0.win 2).blk t).view.emb y)
  refine ((congrArg (out0_2 (iblk m c 0 t) (iblk m c 1 t)) (eq_ix2 y)).trans (tile_apply _ _ (y 0) (y 1))).trans ?_
  refine (tile_score m c t (y 0) (y 1) ⟨128 * t.val + (y 1).val, by omega⟩ rfl).trans ?_
  show Cert.MaxSim.score _ _ _ _ = Cert.MaxSim.score _ _ ((((cfg0.win 2).blk t).view.emb y) 0) ((((cfg0.win 2).blk t).view.emb y) 1)
  refine congrArg₂ (Cert.MaxSim.score _ _) (Fin.ext ?_) (Fin.ext ?_)
  · show (y 0).val = win0_2.index t (0 : Fin 2) * 16 + 1 * (y 0).val
    rw [e5]; omega
  · show 128 * t.val + (y 1).val = win0_2.index t (1 : Fin 2) * 128 + 1 * (y 1).val
    rw [e6]; omega

/-- An index of the result is in tile t's block iff each coordinate is in the block's range on its axis. -/
theorem mem_blk (t : Fin cfg0.N) (i : S16x2048.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v1).slice (win0_2.rect t)).set ↔ _
  rw [View.set_slice_whole, Rect.mem_set_unit]
  exact Iff.rfl

/-- THE RESULT ARRAY after the run is the table: document d's column is written by tile d / 128. -/
theorem final (c : Dev nD) :
    (dats m 0 c).arrAt 2 cfg0.N
      = Cert.MaxSim.table (m ((c : Thread nD τ).loc main_arg0)) (m ((c : Thread nD τ).loc main_arg1)) :=
  (dats m 0 c).arrAt_eq_of_cover 2 _ (fun t _ => flushed_eq m c t) fun i => by
    have hN : grid0.N = 16 := N_0
    have hi0 : (i 0).val < 16 := (i 0).isLt
    have hi1 : (i 1).val < 2048 := (i 1).isLt
    let t : Fin cfg0.N := ⟨(i 1).val / 128, by show _ < grid0.N; rw [hN]; omega⟩
    obtain ⟨-, -, -, -, -, e5, e6⟩ := idx_facts t
    have htv : t.val = (i 1).val / 128 := rfl
    refine ⟨t, flush0_2 t, ?_⟩
    rw [mem_blk]
    intro a
    match a with
    | ⟨0, _⟩ =>
      show win0_2.index t (0 : Fin 2) * 16 ≤ (i 0).val ∧ (i 0).val < win0_2.index t (0 : Fin 2) * 16 + 16
      rw [e5]; omega
    | ⟨1, _⟩ =>
      show win0_2.index t (1 : Fin 2) * 128 ≤ (i 1).val ∧ (i 1).val < win0_2.index t (1 : Fin 2) * 128 + 128
      rw [e6, htv]; omega

/-- The kernel's run, read: the result array ends at the table of the arguments, the arguments unchanged. -/
theorem run : θ_run defs (onTc (τ := τ) (main (F := Ideal))) ⟨m, fun _ => 0, ρ⟩ fun r => ∀ c : Dev nD,
      r.2.mem ((c : Thread nD τ).loc main_v1)
        = Cert.MaxSim.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.MaxSim

end
-- ==== Proof.Ref.lean ====
/-
  The reference computes the score table.

  Its four operations: the product of D with Q over the feature axis, laid out (d, s, q, m); the transpose to
  (q, d, m, s); the maximum over s from minus infinity; the sum over m from zero. Read at (q, d) this is
      0 + Σ_m max_s Σ_k D[d, s, k] · Q[q, m, k],
  the table's entry with the two factors of each product in the other order: multiplication of extended reals is
  commutative, and zero plus a sum is the sum.
-/
import proofs.«144262_j63239098466666_2_alg».proof.Proof.Gen.ReferenceIdeal.Read
import proofs.«144262_j63239098466666_2_alg».proof.Proof.Spec
import Idealize.ShloMosaic.PureOps.Ideal.Laws

noncomputable section

namespace Cert.ReferenceIdeal.MaxSim

open Cert.ReferenceIdeal Cert.ReferenceIdeal.Gen Cert.ReferenceIdeal.Read Idealize.ShloMosaic Idealize.ShloMosaic.ValueIdx

/-- The reference's maximum over the document's tokens at (q, d, m): the fold of max, from the initial value's
    element, of the transposed product along the last axis. -/
theorem v2_apply (x0 : (⟨S16x32x128, .f32⟩ : BufTy).Contents (Elt Ideal)) (x1 : (⟨S2048x180x128, .f32⟩ : BufTy).Contents (Elt Ideal))
    (q : Fin 16) (d : Fin 2048) (m : Fin 32) :
    val_main_v2 (F := Ideal) x0 x1 (ix3 q d m)
      = (Finset.univ : Finset (Fin 180)).fold max (Ideal.ofBits .f32 0xFF800000#32)
          (fun s => val_main_v1 (F := Ideal) x0 x1 (ix4 q d m s)) := by
  unfold val_main_v2
  refine (Host.reduce_eq_fold_single (α := EReal) (FloatOps.maximumf (F := Ideal) (φ := .f32))
    (val_main_v1 (F := Ideal) x0 x1 : S16x2048x32x180.Idx → EReal) (val_main_cst (F := Ideal) : S_.Idx → EReal)
    reducesTo_S16x2048x32x180_S16x2048x32_d3 (by decide) h_S_ (ix3 q d m)).trans ?_
  refine congrArg (fun f => Finset.fold max (Ideal.ofBits .f32 0xFF800000#32) f (Finset.univ : Finset (Fin 180))) (funext fun s => ?_)
  exact congrArg (val_main_v1 (F := Ideal) x0 x1) (funext fun c => Fin.ext (by
    match c with
    | ⟨0, _⟩ => rfl
    | ⟨1, _⟩ => rfl
    | ⟨2, _⟩ => rfl
    | ⟨3, _⟩ => rfl))

/-- The reference's result at (q, d) is the score. -/
theorem ref_apply (x0 : (⟨S16x32x128, .f32⟩ : BufTy).Contents (Elt Ideal)) (x1 : (⟨S2048x180x128, .f32⟩ : BufTy).Contents (Elt Ideal))
    (q : Fin 16) (d : Fin 2048) :
    val_main_v3 (F := Ideal) x0 x1 (ix2 q d) = Cert.MaxSim.score x0 x1 q d := by
  rw [val_main_v3_apply]
  show Ideal.ofBits .f32 0x00000000#32 + _ = _
  rw [Ideal.ofBits_zero_f32, zero_add]
  unfold Cert.MaxSim.score
  refine Finset.sum_congr rfl fun m _ => ?_
  have e : idx_main_v3 (ix2 q d) m = ix3 q d m := funext fun c => Fin.ext (by
    match c with
    | ⟨0, _⟩ => rfl
    | ⟨1, _⟩ => rfl
    | ⟨2, _⟩ => rfl)
  rw [e]
  refine (v2_apply x0 x1 q d m).trans ?_
  refine congrArg (fun f => Finset.fold max (Ideal.ofBits .f32 0xFF800000#32) f (Finset.univ : Finset (Fin 180))) (funext fun s => ?_)
  rw [val_main_v1_apply, val_main_v0_apply]
  refine Finset.sum_congr rfl fun k _ => ?_
  refine (mul_comm _ _).trans (congrArg₂ (· * ·) (congrArg x0 (funext fun c => Fin.ext ?_)) (congrArg x1 (funext fun c => Fin.ext ?_)))
  · match c with
    | ⟨0, _⟩ => rfl
    | ⟨1, _⟩ => rfl
    | ⟨2, _⟩ => rfl
  · match c with
    | ⟨0, _⟩ => rfl
    | ⟨1, _⟩ => rfl
    | ⟨2, _⟩ => rfl

/-- The reference's result is the table. -/
theorem ref_eq (x0 : (⟨S16x32x128, .f32⟩ : BufTy).Contents (Elt Ideal)) (x1 : (⟨S2048x180x128, .f32⟩ : BufTy).Contents (Elt Ideal)) :
    val_main_v3 (F := Ideal) x0 x1 = Cert.MaxSim.table x0 x1 := by
  funext i
  obtain ⟨q, d, rfl⟩ : ∃ (q : Fin 16) (d : Fin 2048), i = ix2 q d := ⟨i 0, i 1, eq_ix2 i⟩
  exact ref_apply x0 x1 q d

end Cert.ReferenceIdeal.MaxSim

end
-- ==== Proof.lean ====
/-
  ColBERT MaxSim: for sixteen queries of 32 tokens and 2048 documents of 180 tokens, each token a vector of 128
  features,
      score(q, d) = Σ_{m < 32} max_{s < 180} Σ_{k < 128} Q[q, m, k] · D[d, s, k].

  The reference forms every inner product in one contraction, transposes, takes the maximum over the document's
  tokens from minus infinity and the sum over the query's tokens from zero. The kernel walks the documents in sixteen
  tiles of 128; within a tile it takes four documents at a time, multiplies the 512 query rows (the sixteen queries'
  tokens, the two leading axes merged) against them in one batched product into a zero accumulator, takes the same
  maximum and sum, and scatters the four columns of scores into the tile's [16, 128] block by multiplying with a 0/1
  indicator of the lane and summing — thirty-two such groups added in a row.

  At the ideal values a change of float format is the identity, a product into a zero accumulator is the sum of
  products, and on the extended reals x · 0 = 0, x · 1 = x and 0 + x = x for every x, infinite or not, while
  multiplication commutes. So the indicator sums collapse to the one document they select with no hypothesis on the
  scores, both programs compute the table Spec.lean states, and the precondition (finite inputs) is never opened.

  The modules: Spec (the table), Ref (the reference's four operations read at an index are the table), Group (one
  group of four documents at an index), Tile (the body is thirty-two groups accumulated, and its block is the tile's
  scores), Final (the sixteen blocks tile the result: the kernel's run ends at the table). The three frames are the
  kernel's frame as proved for any float instance and the reference's run with its result dropped; the idealization
  rewrote nothing, so its conjunct is trivial.
-/
import proofs.«144262_j63239098466666_2_alg».proof.Defs
import proofs.«144262_j63239098466666_2_alg».proof.Proof.Gen.Kernel
import proofs.«144262_j63239098466666_2_alg».proof.Proof.Gen.Kernel.Skeleton
import proofs.«144262_j63239098466666_2_alg».proof.Proof.Gen.Kernel.Launch
import proofs.«144262_j63239098466666_2_alg».proof.Proof.Gen.Kernel.Points
import proofs.«144262_j63239098466666_2_alg».proof.Proof.Gen.Kernel.Frame
import proofs.«144262_j63239098466666_2_alg».proof.Proof.Gen.KernelIdeal
import proofs.«144262_j63239098466666_2_alg».proof.Proof.Gen.KernelIdeal.Skeleton
import proofs.«144262_j63239098466666_2_alg».proof.Proof.Gen.KernelIdeal.Launch
import proofs.«144262_j63239098466666_2_alg».proof.Proof.Gen.KernelIdeal.Points
import proofs.«144262_j63239098466666_2_alg».proof.Proof.Gen.KernelIdeal.Frame
import proofs.«144262_j63239098466666_2_alg».proof.Proof.Gen.ReferenceIdeal
import proofs.«144262_j63239098466666_2_alg».proof.Proof.Gen.Pre_finite_inputs
import proofs.«144262_j63239098466666_2_alg».proof.Proof.Gen.KernelIdeal.Value
import proofs.«144262_j63239098466666_2_alg».proof.Proof.Gen.ReferenceIdeal.Run
import proofs.«144262_j63239098466666_2_alg».proof.Proof.Gen.ReferenceIdeal.Read
import proofs.«144262_j63239098466666_2_alg».proof.Proof.Final
import proofs.«144262_j63239098466666_2_alg».proof.Proof.Ref
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the score table of arguments that agree. -/
theorem algebraic : Cert.algebraic_KernelIdeal_ReferenceIdeal := by
  intro m ρ m' ρ' _ hagree
  refine ⟨_, Cert.KernelIdeal.MaxSim.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.MaxSim.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
